-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x4096x64 : Shape := ⟨3, ![8, 4096, 64]⟩
abbrev S8x256x1024 : Shape := ⟨3, ![8, 256, 1024]⟩
abbrev S8x1024 : Shape := ⟨2, ![8, 1024]⟩
abbrev S8x1024x1024 : Shape := ⟨3, ![8, 1024, 1024]⟩
abbrev S8x1024x64 : Shape := ⟨3, ![8, 1024, 64]⟩
abbrev S8x64 : Shape := ⟨2, ![8, 64]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S8x256x1024 : S_.BroadcastsInDim S8x256x1024 (![] : Fin 0 → Fin S8x256x1024.rank)
  reducesTo_S8x256x1024_S_d0_1_2 : S8x256x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024x64 : S_.BroadcastsInDim S8x1024x64 (![] : Fin 0 → Fin S8x1024x64.rank)
  reducesTo_S8x1024x64_S_d0_1_2 : S8x1024x64.ReducesTo [0, 1, 2] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg7 : FVec F S8x64 .f32) (main_v33 : IVec S_ 1) : IVec S_ 1 :=
  let main_v34 : FVec F S8x64 .f32 := Host.absf main_arg7
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  main_v38

def fn_part1 {F : FTy → Type} [FloatOps F] (main_arg4 : FVec F S8x1024x1024 .f32) (main_arg5 : FVec F S8x1024 .f32) (main_arg6 : FVec F S8x1024x64 .f32) (main_arg7 : FVec F S8x64 .f32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_v19 : FVec F S8x1024x1024 .f32 := Host.absf main_arg4
  let main_cst_6 : FVec F S_ .f32 := constant S_ .f32 0x7F800000#32
  let main_v20 : FVec F S8x1024x1024 .f32 := broadcastInDim S8x1024x1024 ![] bcast_S_S8x1024x1024 main_cst_6
  let main_v21 : IVec S8x1024x1024 1 := cmpf .olt main_v19 main_v20
  let main_c_7 : IVec S_ 1 := constantI S_ 1 1#1
  let main_v22 : IVec S_ 1 := (fun x v => Host.reduce IntOp.andi x v reducesTo_S8x1024x1024_S_d0_1_2 h_S_) main_v21 main_c_7
  let main_v23 : IVec S_ 1 := andi main_v18 main_v22
  let main_v24 : FVec F S8x1024 .f32 := Host.absf main_arg5
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  let main_v29 : FVec F S8x1024x64 .f32 := Host.absf main_arg6
  let main_cst_10 : FVec F S_ .f32 := constant S_ .f32 0x7F800000#32
  let main_v30 : FVec F S8x1024x64 .f32 := broadcastInDim S8x1024x64 ![] bcast_S_S8x1024x64 main_cst_10
  let main_v31 : IVec S8x1024x64 1 := cmpf .olt main_v29 main_v30
  let main_c_11 : IVec S_ 1 := constantI S_ 1 1#1
  let main_v32 : IVec S_ 1 := (fun x v => Host.reduce IntOp.andi x v reducesTo_S8x1024x64_S_d0_1_2 h_S_) main_v31 main_c_11
  let main_v33 : IVec S_ 1 := andi main_v28 main_v32
  fn_part2 (F := F) main_arg7 main_v33

def fn {F : FTy → Type} [FloatOps F] (main_arg0 : FVec F S8x4096x256 .f32) (main_arg1 : FVec F S8x4096x64 .f32) (main_arg2 : FVec F S8x256x1024 .f32) (main_arg3 : FVec F S8x1024 .f32) (main_arg4 : FVec F S8x1024x1024 .f32) (main_arg5 : FVec F S8x1024 .f32) (main_arg6 : FVec F S8x1024x64 .f32) (main_arg7 : FVec F S8x64 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x256x1024 .f32 := Host.absf main_arg2
  let main_cst_2 : FVec F S_ .f32 := constant S_ .f32 0x7F800000#32
  let main_v10 : FVec F S8x256x1024 .f32 := broadcastInDim S8x256x1024 ![] bcast_S_S8x256x1024 main_cst_2
  let main_v11 : IVec S8x256x1024 1 := cmpf .olt main_v9 main_v10
  let main_c_3 : IVec S_ 1 := constantI S_ 1 1#1
  let main_v12 : IVec S_ 1 := (fun x v => Host.reduce IntOp.andi x v reducesTo_S8x256x1024_S_d0_1_2 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg4 main_arg5 main_arg6 main_arg7 main_v13 main_v16
-- ==== Kernel.lean ====
abbrev S8x4096x256 : Shape := ⟨3, ![8, 4096, 256]⟩
abbrev S8x4096x64 : Shape := ⟨3, ![8, 4096, 64]⟩
abbrev S8x256x1024 : Shape := ⟨3, ![8, 256, 1024]⟩
abbrev S8x1024 : Shape := ⟨2, ![8, 1024]⟩
abbrev S8x1024x1024 : Shape := ⟨3, ![8, 1024, 1024]⟩
abbrev S8x1024x64 : Shape := ⟨3, ![8, 1024, 64]⟩
abbrev S8x64 : Shape := ⟨2, ![8, 64]⟩
abbrev S8x1x1024 : Shape := ⟨3, ![8, 1, 1024]⟩
abbrev S8x1x64 : Shape := ⟨3, ![8, 1, 64]⟩
abbrev S8x4096x128 : Shape := ⟨3, ![8, 4096, 128]⟩
abbrev S1x1024x256 : Shape := ⟨3, ![1, 1024, 256]⟩
abbrev S1x1024x64 : Shape := ⟨3, ![1, 1024, 64]⟩
abbrev S1x256x1024 : Shape := ⟨3, ![1, 256, 1024]⟩
abbrev S1x1x1024 : Shape := ⟨3, ![1, 1, 1024]⟩
abbrev S1x1024x1024 : Shape := ⟨3, ![1, 1024, 1024]⟩
abbrev S1x1x64 : Shape := ⟨3, ![1, 1, 64]⟩
abbrev S1x1024x128 : Shape := ⟨3, ![1, 1024, 128]⟩
abbrev S1024x256 : Shape := ⟨2, ![1024, 256]⟩
abbrev S256x1024 : Shape := ⟨2, ![256, 1024]⟩
abbrev S1x1024 : Shape := ⟨2, ![1, 1024]⟩
abbrev S1024x1024 : Shape := ⟨2, ![1024, 1024]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩
abbrev S1024x128 : Shape := ⟨2, ![1024, 128]⟩

abbrev nBuf : Space → Nat
  | .hbm => 14
  | .vmem => 18
  | .smem => 0
  | _ => 0

abbrev bufTy : (tb : Table) → Fin (tcTables nBuf tb) → BufTy
  | .hbm, ⟨0, _⟩ => ⟨S8x4096x256, .f32⟩
  | .hbm, ⟨1, _⟩ => ⟨S8x4096x64, .f32⟩
  | .hbm, ⟨2, _⟩ => ⟨S8x256x1024, .f32⟩
  | .hbm, ⟨3, _⟩ => ⟨S8x1024, .f32⟩
  | .hbm, ⟨4, _⟩ => ⟨S8x1024x1024, .f32⟩
  | .hbm, ⟨5, _⟩ => ⟨S8x1024, .f32⟩
  | .hbm, ⟨6, _⟩ => ⟨S8x1024x64, .f32⟩
  | .hbm, ⟨7, _⟩ => ⟨S8x64, .f32⟩
  | .hbm, ⟨8, _⟩ => ⟨S8x1x1024, .f32⟩
  | .hbm, ⟨9, _⟩ => ⟨S8x1x1024, .f32⟩
  | .hbm, ⟨10, _⟩ => ⟨S8x1x64, .f32⟩
  | .hbm, ⟨11, _⟩ => ⟨S8x4096x128, .f32⟩
  | .hbm, ⟨12, _⟩ => ⟨S8x4096x64, .f32⟩
  | .hbm, ⟨13, _⟩ => ⟨S8x4096x64, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x64, .f32⟩
  | .local _ .vmem, ⟨3, _⟩ => ⟨S1x1024x64, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x64, .f32⟩
  | .local _ .vmem, ⟨13, _⟩ => ⟨S1x1024x64, .f32⟩
  | .local _ .vmem, ⟨14, _⟩ => ⟨S1x1x64, .f32⟩
  | .local _ .vmem, ⟨15, _⟩ => ⟨S1x1x64, .f32⟩
  | .local _ .vmem, ⟨16, _⟩ => ⟨S1x1024x128, .f32⟩
  | .local _ .vmem, ⟨17, _⟩ => ⟨S1x1024x128, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S8x1024_S8x1x1024 : S8x1024.ShapeCasts S8x1x1024
  shapeCasts_S8x64_S8x1x64 : S8x64.ShapeCasts S8x1x64
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  concatenates_S1024x64_S1024x64_S1024x128_d1 : Shape.Concatenates [S1024x64, S1024x64] S1024x128 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S8x4096x128_S8x4096x64_0_0_0 : S8x4096x128.Slices ![0, 0, 0] S8x4096x64
  slices_S8x4096x128_S8x4096x64_0_0_64 : S8x4096x128.Slices ![0, 0, 64] S8x4096x64
  dot_S1024x256_S256x1024_S1024x1024_1_0_0_1_n_n_wf : DotDims.WF S1024x256 S256x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .f32 = 32 ∨ (Rect.block (s := S8x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x4096x64.size a
  hwx0_1 : ∀ i : grid0.Coords, EltTy.bits .f32 = 32 ∨ (Rect.block (s := S8x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x256x1024.size a
  hwx0_2 : ∀ i : grid0.Coords, EltTy.bits .f32 = 32 ∨ (Rect.block (s := S8x256x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x1024.size a
  hwx0_3 : ∀ i : grid0.Coords, EltTy.bits .f32 = 32 ∨ (Rect.block (s := S8x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x1024x1024.size a
  hwx0_4 : ∀ i : grid0.Coords, EltTy.bits .f32 = 32 ∨ (Rect.block (s := S8x1024x1024) S1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S8x1024x64.size a
  hwx0_6 : ∀ i : grid0.Coords, EltTy.bits .f32 = 32 ∨ (Rect.block (s := S8x1024x64) S1x1024x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S8x1x64.size a
  hwx0_7 : ∀ i : grid0.Coords, EltTy.bits .f32 = 32 ∨ (Rect.block (s := S8x1x64) S1x1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x128.size a ≤ S8x4096x128.size a
  hwx0_8 : ∀ i : grid0.Coords, EltTy.bits .f32 = 32 ∨ (Rect.block (s := S8x4096x128) S1x1024x128.size (cc0_transform_8 i) (hinb0_8 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1024x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S8x4096x64 : Shape := ⟨3, ![8, 4096, 64]⟩
abbrev S8x256x1024 : Shape := ⟨3, ![8, 256, 1024]⟩
abbrev S8x1024 : Shape := ⟨2, ![8, 1024]⟩
abbrev S8x1024x1024 : Shape := ⟨3, ![8, 1024, 1024]⟩
abbrev S8x1024x64 : Shape := ⟨3, ![8, 1024, 64]⟩
abbrev S8x64 : Shape := ⟨2, ![8, 64]⟩
abbrev S8x4096x1024 : Shape := ⟨3, ![8, 4096, 1024]⟩
abbrev S8x1x1024 : Shape := ⟨3, ![8, 1, 1024]⟩
abbrev S_ : Shape := ⟨0, ![]⟩
abbrev S8x1x64 : Shape := ⟨3, ![8, 1, 64]⟩
abbrev S8x4096 : Shape := ⟨2, ![8, 4096]⟩
abbrev S8x4096x1 : Shape := ⟨3, ![8, 4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x64, .f32⟩
  | .hbm, ⟨2, _⟩ => ⟨S8x256x1024, .f32⟩
  | .hbm, ⟨3, _⟩ => ⟨S8x1024, .f32⟩
  | .hbm, ⟨4, _⟩ => ⟨S8x1024x1024, .f32⟩
  | .hbm, ⟨5, _⟩ => ⟨S8x1024, .f32⟩
  | .hbm, ⟨6, _⟩ => ⟨S8x1024x64, .f32⟩
  | .hbm, ⟨7, _⟩ => ⟨S8x64, .f32⟩
  | .hbm, ⟨8, _⟩ => ⟨S8x4096x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x1x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S8x4096x64, .f32⟩
  | .hbm, ⟨23, _⟩ => ⟨S8x1x64, .f32⟩
  | .hbm, ⟨24, _⟩ => ⟨S8x4096x64, .f32⟩
  | .hbm, ⟨25, _⟩ => ⟨S8x4096x64, .f32⟩
  | .hbm, ⟨26, _⟩ => ⟨S8x4096x64, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x64, .f32⟩
  | .hbm, ⟨37, _⟩ => ⟨S8x4096x64, .f32⟩
  | .hbm, ⟨38, _⟩ => ⟨S_, .f32⟩
  | .hbm, ⟨39, _⟩ => ⟨S8x4096x64, .f32⟩
  | .hbm, ⟨40, _⟩ => ⟨S8x4096x64, .f32⟩
  | .hbm, ⟨41, _⟩ => ⟨S8x4096x64, .f32⟩
  | .hbm, ⟨42, _⟩ => ⟨S8x4096x64, .f32⟩
  | .hbm, ⟨43, _⟩ => ⟨S_, .f32⟩
  | .hbm, ⟨44, _⟩ => ⟨S8x4096x64, .f32⟩
  | .hbm, ⟨45, _⟩ => ⟨S8x4096x64, .f32⟩
  | .hbm, ⟨46, _⟩ => ⟨S8x4096x64, .f32⟩
  | .hbm, ⟨47, _⟩ => ⟨S_, .f32⟩
  | .hbm, ⟨48, _⟩ => ⟨S8x4096x64, .f32⟩
  | .hbm, ⟨49, _⟩ => ⟨S8x4096x64, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  bcast_S8x64_S8x1x64_0_2 : S8x64.BroadcastsInDim S8x1x64 (![0, 2] : Fin 2 → Fin S8x1x64.rank)
  bcast_S8x1x64_S8x4096x64_0_1_2 : S8x1x64.BroadcastsInDim S8x4096x64 (![0, 1, 2] : Fin 3 → Fin S8x4096x64.rank)
  reducesTo_S8x4096x64_S8x4096_d2 : S8x4096x64.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x64_0_1_2 : S8x4096x1.BroadcastsInDim S8x4096x64 (![0, 1, 2] : Fin 3 → Fin S8x4096x64.rank)
  bcast_S_S8x4096x64 : S_.BroadcastsInDim S8x4096x64 (![] : Fin 0 → Fin S8x4096x64.rank)
  dot_S8x4096x256_S8x256x1024_S8x4096x1024_2_1_1_2_0_0_wf : DotDims.WF S8x4096x256 S8x256x1024 S8x4096x1024 [2] [1] [1] [2] [0] [0]
  dot_S8x4096x1024_S8x1024x1024_S8x4096x1024_2_1_1_2_0_0_wf : DotDims.WF S8x4096x1024 S8x1024x1024 S8x4096x1024 [2] [1] [1] [2] [0] [0]
  dot_S8x4096x1024_S8x1024x64_S8x4096x64_2_1_1_2_0_0_wf : DotDims.WF S8x4096x1024 S8x1024x64 S8x4096x64 [2] [1] [1] [2] [0] [0]

variable [Facts₀]

def dot_S8x4096x256_S8x256x1024_S8x4096x1024_2_1_1_2_0_0 : DotDims S8x4096x256 S8x256x1024 S8x4096x1024 where
  lhsContracting := [2]
  rhsContracting := [1]
  lhsNonContracting := [1]
  rhsNonContracting := [2]
  lhsBatch := [0]
  rhsBatch := [0]
  wf := dot_S8x4096x256_S8x256x1024_S8x4096x1024_2_1_1_2_0_0_wf
def dot_S8x4096x1024_S8x1024x1024_S8x4096x1024_2_1_1_2_0_0 : DotDims S8x4096x1024 S8x1024x1024 S8x4096x1024 where
  lhsContracting := [2]
  rhsContracting := [1]
  lhsNonContracting := [1]
  rhsNonContracting := [2]
  lhsBatch := [0]
  rhsBatch := [0]
  wf := dot_S8x4096x1024_S8x1024x1024_S8x4096x1024_2_1_1_2_0_0_wf
def dot_S8x4096x1024_S8x1024x64_S8x4096x64_2_1_1_2_0_0 : DotDims S8x4096x1024 S8x1024x64 S8x4096x64 where
  lhsContracting := [2]
  rhsContracting := [1]
  lhsNonContracting := [1]
  rhsNonContracting := [2]
  lhsBatch := [0]
  rhsBatch := [0]
  wf := dot_S8x4096x1024_S8x1024x64_S8x4096x64_2_1_1_2_0_0_wf

class Facts : Prop extends Facts₀ where

variable [Facts]
-- ==== Proof.RowMlp.lean ====
/-
  The mathematics both programs compute, for ONE row.

  Fix an ensemble member and one batch row. With `xr` the row's 256 observations, `(w1, b1)`, `(w2, b2)`, `(w3, b3)`
  the member's three affine layers and `nz` the row's 64 noise entries, the row's 64 means are

      mu j = Σ_k h2 k · w3 k j + b3 j,    h2 o = max (Σ_k h1 k · w2 k o + b2 o) 0,    h1 o = max (Σ_k xr k · w1 k o + b1 o) 0,

  they are divided by the row's scale `max ((Σ_j |mu j|) · 2⁻⁶) 1`, and the two results are `tanh` of the scaled mean and
  `tanh` of the scaled mean plus a tenth (the float word `0x3DCCCCCD`, the same on both sides) of the noise, each times `1`.
  Nothing here mentions a block, a grid or a layout: a row of the result depends on that row of the inputs and on its
  member's weights only.

  The one place the two programs spell the scale differently is the mean of the absolute values: a product with the
  float `2⁻⁶` on one side, a quotient by the float `64` on the other. Both words are exact, and on the extended reals a
  quotient by a nonzero real is the product with its inverse at EVERY argument, the infinities included
  (`scale_quotient`).
-/
import Idealize.ShloMosaic.PureOps.Ideal
import Idealize.ShloMosaic.PureOps.Ideal.Laws
import Idealize.ShloMosaic.Lib.ValueIdx

noncomputable section

namespace Cert.RowMlp

open Idealize.ShloMosaic

/-- The float word of `+0.0`, the floor of both hidden layers. -/
abbrev zeroW : EReal := Ideal.ofBits .f32 0x00000000#32
/-- The float word of `1.0`: the floor of the scale, and the factor after each `tanh`. -/
abbrev oneW : EReal := Ideal.ofBits .f32 0x3F800000#32
/-- The float word of `2⁻⁶`. -/
abbrev invW : EReal := Ideal.ofBits .f32 0x3C800000#32
/-- The float word nearest a tenth; both programs spell this same word, so its value is never needed. -/
abbrev tenthW : EReal := Ideal.ofBits .f32 0x3DCCCCCD#32

/-- A hidden layer of width `n` over `d` inputs: the affine map, floored at zero. -/
def hidden {d n : Nat} (x : Fin d → EReal) (w : Fin d → Fin n → EReal) (b : Fin n → EReal) (o : Fin n) : EReal :=
  max (∑ k : Fin d, x k * w k o + b o) zeroW

/-- The last, affine layer. -/
def affine {d n : Nat} (x : Fin d → EReal) (w : Fin d → Fin n → EReal) (b : Fin n → EReal) (j : Fin n) : EReal :=
  ∑ k : Fin d, x k * w k j + b j

/-- The row's 64 means: two hidden layers and the affine head. -/
def mean (xr : Fin 256 → EReal) (w1 : Fin 256 → Fin 1024 → EReal) (b1 : Fin 1024 → EReal)
    (w2 : Fin 1024 → Fin 1024 → EReal) (b2 : Fin 1024 → EReal) (w3 : Fin 1024 → Fin 64 → EReal) (b3 : Fin 64 → EReal) :
    Fin 64 → EReal :=
  affine (hidden (hidden xr w1 b1) w2 b2) w3 b3

/-- The row's scale: the mean absolute value of its means, at least one. -/
def scale (mu : Fin 64 → EReal) : EReal :=
  max ((∑ j : Fin 64, FloatOps.absf (F := Ideal) (φ := .f32) (mu j)) * invW) oneW

/-- The first result at column `j`: `tanh` of the scaled mean. -/
def squashedMean (mu : Fin 64 → EReal) (j : Fin 64) : EReal :=
  Ideal.tanh (Ideal.div (mu j) (scale mu)) * oneW

/-- The second result at column `j`: `tanh` of the scaled mean plus a tenth of the noise. -/
def squashedSample (mu nz : Fin 64 → EReal) (j : Fin 64) : EReal :=
  Ideal.tanh (Ideal.div (mu j) (scale mu) + tenthW * nz j) * oneW

/-- A row of the two results side by side: the squashed means in columns 0 … 63, the squashed samples in 64 … 127. -/
def joined (mu nz : Fin 64 → EReal) (c : Fin 128) : EReal :=
  if h : c.val < 64 then squashedMean mu ⟨c.val, h⟩ else squashedSample mu nz ⟨c.val - 64, by have := c.isLt; omega⟩

/-- `64.0` denotes the real `64`. -/
theorem ofBits_64 : Ideal.ofBits .f32 0x42800000#32 = ((64 : ℝ) : EReal) := by
  simp [Ideal.ofBits, Ideal.ieee, -EReal.coe_mul]; norm_num

/-- `2⁻⁶` denotes the real `1/64`. -/
theorem ofBits_inv64 : invW = (((1 : ℝ) / 64 : ℝ) : EReal) := by
  simp [invW, Ideal.ofBits, Ideal.ieee, -EReal.coe_mul]; norm_num

/-- The quotient of any extended real by the float `64` is its product with the float `2⁻⁶`. -/
theorem scale_quotient (s : EReal) : Ideal.div s (Ideal.ofBits .f32 0x42800000#32) = s * invW := by
  rw [ofBits_64, ofBits_inv64, Ideal.div_coe (by norm_num : (64 : ℝ) ≠ 0)]

/-! ## The two results as whole arrays

  The arrays are indexed by (member, row, column); a member's weights are its slab of each weight array and a row's
  inputs its line of `x` and of the noise. -/

open Idealize.ShloMosaic.ValueIdx

/-- The means of member `e`'s row `r`, from the eight argument arrays' slabs and lines. -/
def meanAt (x : (⟨3, ![8, 4096, 256]⟩ : Shape).Idx → EReal) (w1 : (⟨3, ![8, 256, 1024]⟩ : Shape).Idx → EReal)
    (b1 : (⟨2, ![8, 1024]⟩ : Shape).Idx → EReal) (w2 : (⟨3, ![8, 1024, 1024]⟩ : Shape).Idx → EReal)
    (b2 : (⟨2, ![8, 1024]⟩ : Shape).Idx → EReal) (w3 : (⟨3, ![8, 1024, 64]⟩ : Shape).Idx → EReal)
    (b3 : (⟨2, ![8, 64]⟩ : Shape).Idx → EReal) (e : Fin 8) (r : Fin 4096) : Fin 64 → EReal :=
  mean (fun k => x (ix3 e r k)) (fun k o => w1 (ix3 e k o)) (fun o => b1 (ix2 e o))
    (fun k o => w2 (ix3 e k o)) (fun o => b2 (ix2 e o)) (fun k j => w3 (ix3 e k j)) (fun j => b3 (ix2 e j))

/-- The first result array: at (e, r, j) the squashed mean of row (e, r) at column j. -/
def first (x : (⟨3, ![8, 4096, 256]⟩ : Shape).Idx → EReal) (w1 : (⟨3, ![8, 256, 1024]⟩ : Shape).Idx → EReal)
    (b1 : (⟨2, ![8, 1024]⟩ : Shape).Idx → EReal) (w2 : (⟨3, ![8, 1024, 1024]⟩ : Shape).Idx → EReal)
    (b2 : (⟨2, ![8, 1024]⟩ : Shape).Idx → EReal) (w3 : (⟨3, ![8, 1024, 64]⟩ : Shape).Idx → EReal)
    (b3 : (⟨2, ![8, 64]⟩ : Shape).Idx → EReal) : (⟨3, ![8, 4096, 64]⟩ : Shape).Idx → EReal :=
  fun i => squashedMean (meanAt x w1 b1 w2 b2 w3 b3 (i 0) (i 1)) (i 2)

/-- The second result array: at (e, r, j) the squashed sample of row (e, r) at column j. -/
def second (x : (⟨3, ![8, 4096, 256]⟩ : Shape).Idx → EReal) (nz : (⟨3, ![8, 4096, 64]⟩ : Shape).Idx → EReal)
    (w1 : (⟨3, ![8, 256, 1024]⟩ : Shape).Idx → EReal)
    (b1 : (⟨2, ![8, 1024]⟩ : Shape).Idx → EReal) (w2 : (⟨3, ![8, 1024, 1024]⟩ : Shape).Idx → EReal)
    (b2 : (⟨2, ![8, 1024]⟩ : Shape).Idx → EReal) (w3 : (⟨3, ![8, 1024, 64]⟩ : Shape).Idx → EReal)
    (b3 : (⟨2, ![8, 64]⟩ : Shape).Idx → EReal) : (⟨3, ![8, 4096, 64]⟩ : Shape).Idx → EReal :=
  fun i => squashedSample (meanAt x w1 b1 w2 b2 w3 b3 (i 0) (i 1)) (fun j => nz (ix3 (i 0) (i 1) j)) (i 2)

/-! ## The joined array, over biases kept as one-row slabs

  The same means with each bias given as an [8, 1, n] array (one row per member), and the [8, 4096, 128] array whose row
  (e, r) is the two results of that row side by side. -/

/-- The means of member `e`'s row `r`, the biases read from one-row slabs. -/
def slabMeanAt (x : (⟨3, ![8, 4096, 256]⟩ : Shape).Idx → EReal) (w1 : (⟨3, ![8, 256, 1024]⟩ : Shape).Idx → EReal)
    (b1 : (⟨3, ![8, 1, 1024]⟩ : Shape).Idx → EReal) (w2 : (⟨3, ![8, 1024, 1024]⟩ : Shape).Idx → EReal)
    (b2 : (⟨3, ![8, 1, 1024]⟩ : Shape).Idx → EReal) (w3 : (⟨3, ![8, 1024, 64]⟩ : Shape).Idx → EReal)
    (b3 : (⟨3, ![8, 1, 64]⟩ : Shape).Idx → EReal) (e : Fin 8) (r : Fin 4096) : Fin 64 → EReal :=
  mean (fun k => x (ix3 e r k)) (fun k o => w1 (ix3 e k o)) (fun o => b1 (ix3 e (0 : Fin 1) o))
    (fun k o => w2 (ix3 e k o)) (fun o => b2 (ix3 e (0 : Fin 1) o)) (fun k j => w3 (ix3 e k j)) (fun j => b3 (ix3 e (0 : Fin 1) j))

/-- The joined array at (e, r, c). -/
def joinedAt (x : (⟨3, ![8, 4096, 256]⟩ : Shape).Idx → EReal) (nz : (⟨3, ![8, 4096, 64]⟩ : Shape).Idx → EReal)
    (w1 : (⟨3, ![8, 256, 1024]⟩ : Shape).Idx → EReal)
    (b1 : (⟨3, ![8, 1, 1024]⟩ : Shape).Idx → EReal) (w2 : (⟨3, ![8, 1024, 1024]⟩ : Shape).Idx → EReal)
    (b2 : (⟨3, ![8, 1, 1024]⟩ : Shape).Idx → EReal) (w3 : (⟨3, ![8, 1024, 64]⟩ : Shape).Idx → EReal)
    (b3 : (⟨3, ![8, 1, 64]⟩ : Shape).Idx → EReal) (e : Fin 8) (r : Fin 4096) (c : Fin 128) : EReal :=
  joined (slabMeanAt x w1 b1 w2 b2 w3 b3 e r) (fun j => nz (ix3 e r j)) c

/-- The joined array. -/
def joinedArray (x : (⟨3, ![8, 4096, 256]⟩ : Shape).Idx → EReal) (nz : (⟨3, ![8, 4096, 64]⟩ : Shape).Idx → EReal)
    (w1 : (⟨3, ![8, 256, 1024]⟩ : Shape).Idx → EReal)
    (b1 : (⟨3, ![8, 1, 1024]⟩ : Shape).Idx → EReal) (w2 : (⟨3, ![8, 1024, 1024]⟩ : Shape).Idx → EReal)
    (b2 : (⟨3, ![8, 1, 1024]⟩ : Shape).Idx → EReal) (w3 : (⟨3, ![8, 1024, 64]⟩ : Shape).Idx → EReal)
    (b3 : (⟨3, ![8, 1, 64]⟩ : Shape).Idx → EReal) : (⟨3, ![8, 4096, 128]⟩ : Shape).Idx → EReal :=
  fun i => joinedAt x nz w1 b1 w2 b2 w3 b3 (i 0) (i 1) (i 2)

end Cert.RowMlp

end
-- ==== Proof.RefRow.lean ====
/-
  The reference computes the row function.

  Read one operation at a time, the reference's two results at (member e, row r, column j) are the squashed mean and the
  squashed sample of row (e, r): each batched product contracts the row's line against the member's slab, each bias is
  the member's line spread over the rows, the mean of absolute values runs over the row's 64 columns, and the quotient by
  the float `64` is the product with the float `2⁻⁶`.
-/
import proofs.«133780_j60902636257569_2_alg».proof.Proof.Gen.ReferenceIdeal.Read
import proofs.«133780_j60902636257569_2_alg».proof.Proof.RowMlp

noncomputable section

namespace Cert.RefRow

open Cert.ReferenceIdeal Cert.ReferenceIdeal.Read Idealize.ShloMosaic Idealize.ShloMosaic.ValueIdx Cert.RowMlp

variable (x0 : (⟨S8x4096x256, .f32⟩ : BufTy).Contents (Elt Ideal)) (x1 : (⟨S8x4096x64, .f32⟩ : BufTy).Contents (Elt Ideal))
  (x2 : (⟨S8x256x1024, .f32⟩ : BufTy).Contents (Elt Ideal)) (x3 : (⟨S8x1024, .f32⟩ : BufTy).Contents (Elt Ideal))
  (x4 : (⟨S8x1024x1024, .f32⟩ : BufTy).Contents (Elt Ideal)) (x5 : (⟨S8x1024, .f32⟩ : BufTy).Contents (Elt Ideal))
  (x6 : (⟨S8x1024x64, .f32⟩ : BufTy).Contents (Elt Ideal)) (x7 : (⟨S8x64, .f32⟩ : BufTy).Contents (Elt Ideal))

/-! ## Where each operation reads its operands, in coordinates -/

theorem lidx0 (e : Fin 8) (r : Fin 4096) (o : Fin 1024) (k : Fin 256) : lidx_main_v0 (ix3 e r o) k = ix3 e r k :=
  funext fun a => by match a with | ⟨0, _⟩ => rfl | ⟨1, _⟩ => rfl | ⟨2, _⟩ => rfl
theorem ridx0 (e : Fin 8) (r : Fin 4096) (o : Fin 1024) (k : Fin 256) : ridx_main_v0 (ix3 e r o) k = ix3 e k o :=
  funext fun a => by match a with | ⟨0, _⟩ => rfl | ⟨1, _⟩ => rfl | ⟨2, _⟩ => rfl
theorem bidx1 (e : Fin 8) (r : Fin 4096) (o : Fin 1024) : idx_main_v1 (idx_main_v2 (ix3 e r o)) = ix2 e o :=
  funext fun a => by match a with | ⟨0, _⟩ => rfl | ⟨1, _⟩ => rfl
theorem lidx5 (e : Fin 8) (r : Fin 4096) (o : Fin 1024) (k : Fin 1024) : lidx_main_v5 (ix3 e r o) k = ix3 e r k :=
  funext fun a => by match a with | ⟨0, _⟩ => rfl | ⟨1, _⟩ => rfl | ⟨2, _⟩ => rfl
theorem ridx5 (e : Fin 8) (r : Fin 4096) (o : Fin 1024) (k : Fin 1024) : ridx_main_v5 (ix3 e r o) k = ix3 e k o :=
  funext fun a => by match a with | ⟨0, _⟩ => rfl | ⟨1, _⟩ => rfl | ⟨2, _⟩ => rfl
theorem bidx6 (e : Fin 8) (r : Fin 4096) (o : Fin 1024) : idx_main_v6 (idx_main_v7 (ix3 e r o)) = ix2 e o :=
  funext fun a => by match a with | ⟨0, _⟩ => rfl | ⟨1, _⟩ => rfl
theorem lidx10 (e : Fin 8) (r : Fin 4096) (j : Fin 64) (k : Fin 1024) : lidx_main_v10 (ix3 e r j) k = ix3 e r k :=
  funext fun a => by match a with | ⟨0, _⟩ => rfl | ⟨1, _⟩ => rfl | ⟨2, _⟩ => rfl
theorem ridx10 (e : Fin 8) (r : Fin 4096) (j : Fin 64) (k : Fin 1024) : ridx_main_v10 (ix3 e r j) k = ix3 e k j :=
  funext fun a => by match a with | ⟨0, _⟩ => rfl | ⟨1, _⟩ => rfl | ⟨2, _⟩ => rfl
theorem bidx11 (e : Fin 8) (r : Fin 4096) (j : Fin 64) : idx_main_v11 (idx_main_v12 (ix3 e r j)) = ix2 e j :=
  funext fun a => by match a with | ⟨0, _⟩ => rfl | ⟨1, _⟩ => rfl
theorem sidx15 (e : Fin 8) (r : Fin 4096) (u : Fin 1) (k : Fin 64) : idx_main_v15 (idx_main_v16 (ix3 e r u)) k = ix3 e r k :=
  funext fun a => by match a with | ⟨0, _⟩ => rfl | ⟨1, _⟩ => rfl | ⟨2, _⟩ => rfl
theorem cidx21 (e : Fin 8) (r : Fin 4096) (j : Fin 64) : idx_main_v21 (ix3 e r j) = ix3 e r (0 : Fin 1) :=
  funext fun a => by match a with | ⟨0, _⟩ => rfl | ⟨1, _⟩ => rfl | ⟨2, _⟩ => rfl

/-! ## The stages -/

/-- The first hidden layer at (e, r, o). -/
theorem layer1 (e : Fin 8) (r : Fin 4096) (o : Fin 1024) :
    val_main_v4 (F := Ideal) x0 x2 x3 (ix3 e r o)
      = hidden (fun k => x0 (ix3 e r k)) (fun k o => x2 (ix3 e k o)) (fun o => x3 (ix2 e o)) o := by
  rw [val_main_v4_apply, val_main_v3_apply, val_main_v0_apply, val_main_v2_apply, val_main_v1_apply,
    val_main_call0_v0_apply, val_main_call0_cst_apply, bidx1]
  simp only [lidx0, ridx0, Ideal.maximumf_def, Ideal.addf_def, Ideal.ofBits_def]
  rfl

/-- The second hidden layer at (e, r, o). -/
theorem layer2 (e : Fin 8) (r : Fin 4096) (o : Fin 1024) :
    val_main_v9 (F := Ideal) x0 x2 x3 x4 x5 (ix3 e r o)
      = hidden (hidden (fun k => x0 (ix3 e r k)) (fun k o => x2 (ix3 e k o)) (fun o => x3 (ix2 e o)))
          (fun k o => x4 (ix3 e k o)) (fun o => x5 (ix2 e o)) o := by
  rw [val_main_v9_apply, val_main_v8_apply, val_main_v5_apply, val_main_v7_apply, val_main_v6_apply,
    val_main_call1_v0_apply, val_main_call1_cst_apply, bidx6]
  simp only [lidx5, ridx5, layer1, Ideal.maximumf_def, Ideal.addf_def, Ideal.ofBits_def]
  rfl

/-- The means at (e, r, j). -/
theorem means (e : Fin 8) (r : Fin 4096) (j : Fin 64) :
    val_main_v13 (F := Ideal) x0 x2 x3 x4 x5 x6 x7 (ix3 e r j) = meanAt x0 x2 x3 x4 x5 x6 x7 e r j := by
  rw [val_main_v13_apply, val_main_v10_apply, val_main_v12_apply, val_main_v11_apply, bidx11]
  simp only [lidx10, ridx10, layer2, Ideal.addf_def]
  rfl

/-- The scale of row (e, r): the host's sum from zero over the row's columns, divided by the float `64`, at least one. -/
theorem scales (e : Fin 8) (r : Fin 4096) (u : Fin 1) :
    val_main_v20 (F := Ideal) x0 x2 x3 x4 x5 x6 x7 (ix3 e r u) = scale (meanAt x0 x2 x3 x4 x5 x6 x7 e r) := by
  rw [val_main_v20_apply, val_main_v18_apply, val_main_v16_apply, val_main_v15_apply, val_main_cst_apply,
    val_main_v17_apply, val_main_cst_0_apply, val_main_v19_apply, val_main_cst_1_apply]
  simp only [sidx15, val_main_v14_apply, means, Ideal.maximumf_def, Ideal.hostDivf_def, Ideal.hostAbsf_def,
    Ideal.ofBits_def, Ideal.ofBits_zero_f32, zero_add, scale_quotient]
  rfl

/-- The scaled mean at (e, r, j). -/
theorem scaled (e : Fin 8) (r : Fin 4096) (j : Fin 64) :
    val_main_v22 (F := Ideal) x0 x2 x3 x4 x5 x6 x7 (ix3 e r j)
      = Ideal.div (meanAt x0 x2 x3 x4 x5 x6 x7 e r j) (scale (meanAt x0 x2 x3 x4 x5 x6 x7 e r)) := by
  rw [val_main_v22_apply, val_main_v21_apply, cidx21, means, scales, Ideal.hostDivf_def]

/-- The reference's first result is the first result array of the row function. -/
theorem first_eq : val_main_v28 (F := Ideal) x0 x2 x3 x4 x5 x6 x7 = first x0 x2 x3 x4 x5 x6 x7 := by
  funext i
  obtain ⟨e, r, j, rfl⟩ : ∃ (e : Fin 8) (r : Fin 4096) (j : Fin 64), i = ix3 e r j := ⟨i 0, i 1, i 2, eq_ix3 i⟩
  rw [val_main_v28_apply, val_main_v26_apply, scaled, val_main_v27_apply, val_main_cst_3_apply,
    Ideal.hostUnary_tanh_def, Ideal.mulf_def, Ideal.ofBits_def]
  rfl

/-- The reference's second result is the second result array of the row function. -/
theorem second_eq : val_main_v31 (F := Ideal) x0 x1 x2 x3 x4 x5 x6 x7 = second x0 x1 x2 x3 x4 x5 x6 x7 := by
  funext i
  obtain ⟨e, r, j, rfl⟩ : ∃ (e : Fin 8) (r : Fin 4096) (j : Fin 64), i = ix3 e r j := ⟨i 0, i 1, i 2, eq_ix3 i⟩
  rw [val_main_v31_apply, val_main_v29_apply, val_main_v25_apply, scaled, val_main_v24_apply, val_main_v23_apply,
    val_main_cst_2_apply, val_main_v30_apply, val_main_cst_4_apply,
    Ideal.hostUnary_tanh_def, Ideal.mulf_def, Ideal.mulf_def, Ideal.addf_def, Ideal.ofBits_def, Ideal.ofBits_def]
  rfl

end Cert.RefRow

end
-- ==== Proof.LibPlainDot.lean ====
/-
  A plain matrix product read at an entry.

  For an [M, K] by [K, N] product with no batch axis, contracting the left operand's columns against the right operand's
  rows, the operand indices at the result entry (p, o) and the contraction coordinate q are (p, q) and (q, o). So at the
  ideal values the product accumulated onto the zero splat is, at (p, o), the sum over q of lhs (p, q) · rhs (q, o).
-/
import Idealize.ShloMosaic.PureOps.Ideal.Laws
import Idealize.ShloMosaic.Lib.ValueIdx

noncomputable section

namespace Cert.LibPlainDot

open Idealize.ShloMosaic Idealize.ShloMosaic.ValueIdx

/-- The left operand's index at result entry (p, o) and contraction coordinate q is (p, q). -/
theorem plain_lhsIdx {M K N : ℕ} (p : Fin M) (o : Fin N) (q : Fin K) :
    (DotDims.plain M K N).lhsIdx (ix2 p o) ((contrEquiv1 (DotDims.plain M K N) K rfl rfl).symm q) = ix2 p q :=
  funext fun a => Fin.ext (by
    match a with
    | ⟨0, _⟩ => rfl
    | ⟨1, _⟩ => exact contrEquiv1_symm_val (DotDims.plain M K N) K rfl rfl q)

/-- The right operand's index at result entry (p, o) and contraction coordinate q is (q, o). -/
theorem plain_rhsIdx {M K N : ℕ} (p : Fin M) (o : Fin N) (q : Fin K) :
    (DotDims.plain M K N).rhsIdx (ix2 p o) ((contrEquiv1 (DotDims.plain M K N) K rfl rfl).symm q) = ix2 q o :=
  funext fun a => Fin.ext (by
    match a with
    | ⟨0, _⟩ => exact contrEquiv1_symm_val (DotDims.plain M K N) K rfl rfl q
    | ⟨1, _⟩ => rfl)

/-- A plain product onto the zero splat, read at (p, o): the sum over the contraction coordinate. -/
theorem plain_matmul_zero_apply {M K N : ℕ} {φ₁ φ₂ : FTy} (prec : Option ContractPrecision)
    (lhs : FVec Ideal ⟨2, ![M, K]⟩ φ₁) (rhs : FVec Ideal ⟨2, ![K, N]⟩ φ₂) (p : Fin M) (o : Fin N) :
    FloatOps.matmul (DotDims.plain M K N) prec lhs rhs (constant ⟨2, ![M, N]⟩ .f32 0x00000000#32) (ix2 p o)
      = ∑ q : Fin K, lhs (ix2 p q) * rhs (ix2 q o) := by
  rw [Ideal.matmul_constant_zero_apply, ← Equiv.sum_comp (contrEquiv1 (DotDims.plain M K N) K rfl rfl).symm]
  refine Finset.sum_congr rfl fun q _ => ?_
  rw [plain_lhsIdx, plain_rhsIdx]

end Cert.LibPlainDot

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibLaneSum.lean ====
/-
  A sum along the rows of a matrix, read at a row.

  Reducing an [a, b] matrix along its second axis with the additive accumulator at zero gives, at the ideal values, the
  vector whose entry p is the sum over the b columns of the matrix's row p: the source index over result entry p with
  coordinate k on the dropped axis is (p, k).
-/
import Idealize.ShloMosaic.PureOps.Ideal.Laws
import Idealize.ShloMosaic.Lib.ValueIdx

noncomputable section

namespace Cert.LibLaneSum

open Idealize.ShloMosaic Idealize.ShloMosaic.ValueIdx

/-- The source index over result entry `p` with `k` on the dropped second axis is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- An additive reduction of an `[a, b]` matrix along its second axis from the zero word, read at row `p`. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.LibJoinColumns.lean ====
/-
  Two matrices joined side by side, read at an entry.

  Joining an [a, b₁] and an [a, b₂] matrix along the columns gives an [a, n] matrix whose entry (p, c) is the first
  matrix's (p, c) for a column c inside the first piece, and the second matrix's (p, c - b₁) for a column past it.
-/
import Idealize.ShloMosaic.Lib.Pipeline.Value
import Idealize.ShloMosaic.Lib.ValueIdx

namespace Cert.LibJoinColumns

open Idealize.ShloMosaic Idealize.ShloMosaic.ValueIdx

variable {α : Type}

/-- A column inside the first piece reads the first matrix at the same entry. -/
theorem join_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (c : Fin n) (j : Fin b₁)
    (hc : j.val = c.val) :
    concatenate ⟨2, ![a, n]⟩ 1 [⟨⟨2, ![a, b₁]⟩, x₁⟩, ⟨⟨2, ![a, b₂]⟩, x₂⟩] h (ix2 p c) = x₁ (ix2 p j) :=
  concatenate_pair_apply_left 1 x₁ x₂ h (ix2 p c) rfl (ix2 p j) (fun b => by
    match b with
    | ⟨0, _⟩ => rfl
    | ⟨1, _⟩ => exact hc)

/-- A column past the first piece reads the second matrix, the first piece's width less. -/
theorem join_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (c : Fin n) (j : Fin b₂)
    (hc : j.val + b₁ = c.val) :
    concatenate ⟨2, ![a, n]⟩ 1 [⟨⟨2, ![a, b₁]⟩, x₁⟩, ⟨⟨2, ![a, b₂]⟩, x₂⟩] h (ix2 p c) = x₂ (ix2 p j) :=
  concatenate_pair_apply_right 1 x₁ x₂ h (ix2 p c) rfl rfl (ix2 p j) (fun b hb => by
    match b with
    | ⟨0, _⟩ => rfl
    | ⟨1, _⟩ => exact absurd rfl hb) hc

end Cert.LibJoinColumns
-- ==== Proof.KernelRow.lean ====
/-
  The kernel's body computes the row function on its blocks.

  At a grid point the body holds one member's weights (blocks [1, 256, 1024], [1, 1, 1024], …) and 1024 rows of `x` and of
  the noise (blocks [1, 1024, 256] and [1, 1024, 64]), and stores one [1, 1024, 128] block. Read at (0, p, c), the stored
  block is the squashed mean of the block's row p at column c for c < 64, and the squashed sample of that row at column
  c - 64 from there on: the three matrix products are plain products into a zero accumulator, so each entry is the sum
  over the contracted coordinate; a change of float format is the identity; the biases are one row spread over all rows;
  the scale is the lane sum of absolute values kept as a column and spread back over the 64 columns; and the two [1024, 64]
  results are joined side by side.
-/
import proofs.«133780_j60902636257569_2_alg».proof.Proof.Gen.KernelIdeal.Skeleton
import proofs.«133780_j60902636257569_2_alg».proof.Proof.RowMlp
import proofs.«133780_j60902636257569_2_alg».proof.Proof.LibPlainDot
import proofs.«133780_j60902636257569_2_alg».proof.Proof.LibColumn
import proofs.«133780_j60902636257569_2_alg».proof.Proof.LibLaneSum
import proofs.«133780_j60902636257569_2_alg».proof.Proof.LibJoinColumns
import Idealize.ShloMosaic.Lib.ValueLayout
import Idealize.ShloMosaic.Lib.Pipeline.Value

noncomputable section

namespace Cert.KernelRow

open Cert.KernelIdeal Cert.KernelIdeal.Gen Idealize.ShloMosaic Idealize.ShloMosaic.ValueIdx Cert.RowMlp Cert.LibPlainDot
  Cert.LibColumn Cert.LibLaneSum Cert.LibJoinColumns

/-- The three products' dimension records are the plain rows-by-columns one (they differ from it in a proof only). -/
theorem dims1 : dot_S1024x256_S256x1024_S1024x1024_1_0_0_1_n_n = DotDims.plain 1024 256 1024 := rfl
theorem dims2 : dot_S1024x1024_S1024x1024_S1024x1024_1_0_0_1_n_n = DotDims.plain 1024 1024 1024 := rfl
theorem dims3 : dot_S1024x1024_S1024x64_S1024x64_1_0_0_1_n_n = DotDims.plain 1024 1024 64 := rfl

/-- A vector `tanh` and a vector absolute value act entry by entry. -/
theorem tanh_apply {s : Shape} (v : FVec Ideal s .f32) (i : s.Idx) : tanh v i = Ideal.tanh (v i) := rfl
theorem absf_apply {s : Shape} (v : FVec Ideal s .f32) (i : s.Idx) : absf v i = FloatOps.absf (v i) := rfl

variable (x0 : Vec Ideal S1x1024x256 .f32) (x1 : Vec Ideal S1x1024x64 .f32) (x2 : Vec Ideal S1x256x1024 .f32)
  (x3 : Vec Ideal S1x1x1024 .f32) (x4 : Vec Ideal S1x1024x1024 .f32) (x5 : Vec Ideal S1x1x1024 .f32)
  (x6 : Vec Ideal S1x1024x64 .f32) (x7 : Vec Ideal S1x1x64 .f32)

/-- The last product at (p, j): the second hidden layer of the block's row p against the third weight block. -/
theorem product_apply (p : Fin 1024) (j : Fin 64) :
    k0_pay2 (F := Ideal) x0 x2 x3 x4 x5 x6 (ix2 p j)
      = ∑ k : Fin 1024, hidden (hidden (fun k => x0 (ix3 0 p k)) (fun k o => x2 (ix3 0 k o)) (fun o => x3 (ix3 0 0 o)))
          (fun k o => x4 (ix3 0 k o)) (fun o => x5 (ix3 0 0 o)) k * x6 (ix3 0 k j) := by
  unfold k0_pay2
  simp only [matmul, dims1, dims2, dims3, plain_matmul_zero_apply, truncf_apply, maximumf_apply, addf_apply, broadcast_apply,
    shapeCast_1ab_ab_apply, broadcastTo_1b_ab_apply, Ideal.ofBits_def]
  rfl

/-- The last bias spread over the rows, at (p, j). -/
theorem bias_apply (p : Fin 1024) (j : Fin 64) : k0_pay3 (F := Ideal) x7 (ix2 p j) = x7 (ix3 0 0 j) := by
  unfold k0_pay3
  simp only [shapeCast_1ab_ab_apply, broadcastTo_1b_ab_apply]

/-- The stored block at a column of its left half: the squashed mean of the row whose means are `v30 + v31`. -/
theorem stored_left (v30 v31 : FVec Ideal S1024x64 .f32) (v42 : Vec Ideal S1x1024x64 .f32) (u : Fin 1) (p : Fin 1024)
    (c : Fin 128) (j : Fin 64) (hc : j.val = c.val) :
    k0_pay1 (F := Ideal) v30 v31 v42 (ix3 u p c) = squashedMean (fun j => v30 (ix2 p j) + v31 (ix2 p j)) j := by
  unfold k0_pay1
  simp only [shapeCast_ab_1ab_apply]
  rw [join_left _ _ _ p c j hc]
  simp only [mulf_apply, tanh_apply, divf_apply, addf_apply, broadcast_apply, broadcastTo_a1_ab_apply, maximumf_apply,
    shapeCast_a_a1_apply, Ideal.ofBits_def]
  refine congrArg (fun s => Ideal.tanh (Ideal.div (v30 (ix2 p j) + v31 (ix2 p j)) (max (s * invW) oneW)) * oneW) ?_
  exact lane_sum_apply (absf (addf v30 v31)) reduces_S1024x64_S1024 _ _ p

/-- The stored block at a column of its right half: the squashed sample of that row with the noise block's row. -/
theorem stored_right (v30 v31 : FVec Ideal S1024x64 .f32) (v42 : Vec Ideal S1x1024x64 .f32) (u : Fin 1) (p : Fin 1024)
    (c : Fin 128) (j : Fin 64) (hc : j.val + 64 = c.val) :
    k0_pay1 (F := Ideal) v30 v31 v42 (ix3 u p c)
      = squashedSample (fun j => v30 (ix2 p j) + v31 (ix2 p j)) (fun j => v42 (ix3 0 p j)) j := by
  unfold k0_pay1
  simp only [shapeCast_ab_1ab_apply]
  rw [join_right _ _ _ p c j hc]
  simp only [mulf_apply, tanh_apply, divf_apply, addf_apply, broadcast_apply, broadcastTo_a1_ab_apply, maximumf_apply,
    shapeCast_a_a1_apply, shapeCast_1ab_ab_apply, Ideal.ofBits_def]
  refine congrArg (fun s => Ideal.tanh (Ideal.div (v30 (ix2 p j) + v31 (ix2 p j)) (max (s * invW) oneW)
    + tenthW * v42 (ix3 0 p j)) * oneW) ?_
  exact lane_sum_apply (absf (addf v30 v31)) reduces_S1024x64_S1024 _ _ p

/-- The means of the block's row `p`, from the eight input blocks. -/
def blockMean (p : Fin 1024) : Fin 64 → EReal :=
  mean (fun k => x0 (ix3 0 p k)) (fun k o => x2 (ix3 0 k o)) (fun o => x3 (ix3 0 0 o))
    (fun k o => x4 (ix3 0 k o)) (fun o => x5 (ix3 0 0 o)) (fun k j => x6 (ix3 0 k j)) (fun j => x7 (ix3 0 0 j))

/-- The body's stored block, left half. -/
theorem body_left (u : Fin 1) (p : Fin 1024) (c : Fin 128) (j : Fin 64) (hc : j.val = c.val) :
    k0_pay1 (F := Ideal) (k0_pay2 x0 x2 x3 x4 x5 x6) (k0_pay3 x7) x1 (ix3 u p c)
      = squashedMean (blockMean x0 x2 x3 x4 x5 x6 x7 p) j := by
  rw [stored_left _ _ _ u p c j hc]
  simp only [product_apply, bias_apply]
  rfl

/-- The body's stored block, right half. -/
theorem body_right (u : Fin 1) (p : Fin 1024) (c : Fin 128) (j : Fin 64) (hc : j.val + 64 = c.val) :
    k0_pay1 (F := Ideal) (k0_pay2 x0 x2 x3 x4 x5 x6) (k0_pay3 x7) x1 (ix3 u p c)
      = squashedSample (blockMean x0 x2 x3 x4 x5 x6 x7 p) (fun j => x1 (ix3 0 p j)) j := by
  rw [stored_right _ _ _ u p c j hc]
  simp only [product_apply, bias_apply]
  rfl

/-- The body's stored block at (0, p, c): the block's row p, joined. -/
theorem body_apply (u : Fin 1) (p : Fin 1024) (c : Fin 128) :
    k0_pay1 (F := Ideal) (k0_pay2 x0 x2 x3 x4 x5 x6) (k0_pay3 x7) x1 (ix3 u p c)
      = joined (blockMean x0 x2 x3 x4 x5 x6 x7 p) (fun j => x1 (ix3 0 p j)) c := by
  have hc := c.isLt
  unfold joined
  split
  · next h => exact body_left x0 x1 x2 x3 x4 x5 x6 x7 u p c ⟨c.val, h⟩ rfl
  · next h => exact body_right x0 x1 x2 x3 x4 x5 x6 x7 u p c ⟨c.val - 64, by omega⟩ (by show c.val - 64 + 64 = c.val; omega)

/-- When the eight blocks are the arrays' row (e, r) and member e's slabs, the stored block's row p is the joined array's
    row (e, r). -/
theorem block_entry (a0 : (⟨3, ![8, 4096, 256]⟩ : Shape).Idx → EReal) (a1 : (⟨3, ![8, 4096, 64]⟩ : Shape).Idx → EReal)
    (a2 : (⟨3, ![8, 256, 1024]⟩ : Shape).Idx → EReal) (a3 : (⟨3, ![8, 1, 1024]⟩ : Shape).Idx → EReal)
    (a4 : (⟨3, ![8, 1024, 1024]⟩ : Shape).Idx → EReal) (a5 : (⟨3, ![8, 1, 1024]⟩ : Shape).Idx → EReal)
    (a6 : (⟨3, ![8, 1024, 64]⟩ : Shape).Idx → EReal) (a7 : (⟨3, ![8, 1, 64]⟩ : Shape).Idx → EReal)
    (e : Fin 8) (r : Fin 4096) (u : Fin 1) (p : Fin 1024) (c : Fin 128)
    (h0 : ∀ k, x0 (ix3 0 p k) = a0 (ix3 e r k)) (h1 : ∀ j, x1 (ix3 0 p j) = a1 (ix3 e r j))
    (h2 : ∀ k o, x2 (ix3 0 k o) = a2 (ix3 e k o)) (h3 : ∀ o, x3 (ix3 0 0 o) = a3 (ix3 e 0 o))
    (h4 : ∀ k o, x4 (ix3 0 k o) = a4 (ix3 e k o)) (h5 : ∀ o, x5 (ix3 0 0 o) = a5 (ix3 e 0 o))
    (h6 : ∀ k j, x6 (ix3 0 k j) = a6 (ix3 e k j)) (h7 : ∀ j, x7 (ix3 0 0 j) = a7 (ix3 e 0 j)) :
    k0_pay1 (F := Ideal) (k0_pay2 x0 x2 x3 x4 x5 x6) (k0_pay3 x7) x1 (ix3 u p c)
      = joinedAt a0 a1 a2 a3 a4 a5 a6 a7 e r c := by
  rw [body_apply]
  unfold blockMean joinedAt slabMeanAt
  simp only [h0, h1, h2, h3, h4, h5, h6, h7]

end Cert.KernelRow

end
-- ==== Proof.KernelArray.lean ====
/-
  From the blocks to the array.

  The grid has a point for each (member e, quarter b): the point's input blocks are rows b·1024 … b·1024 + 1023 of member
  e's `x` and noise and the whole of member e's weight and bias slabs, and it writes back rows b·1024 … b·1024 + 1023 of
  member e's slab of the [8, 4096, 128] output. An element (0, p, c) of a block sits in its array at the block index times the
  block's size plus its own coordinate on each axis, so the block's row p is the arrays' row (e, b·1024 + p); by the body's
  row lemma what the point writes back is the joined array restricted to its block. Every (e, r, c) lies in the block of
  the point (e, r / 1024), so after the run the output array IS the joined array of the arrays the region found.
-/
import proofs.«133780_j60902636257569_2_alg».proof.Proof.Gen.KernelIdeal.Frame
import proofs.«133780_j60902636257569_2_alg».proof.Proof.KernelRow
import Idealize.ShloMosaic.Lib.Pipeline.Value

set_option maxRecDepth 16384

noncomputable section

namespace Cert.KernelArray

open Cert.KernelIdeal Cert.KernelIdeal.Gen Idealize.ShloMosaic Idealize.ShloMosaic.TcCoe Idealize.ShloMosaic.ValueIdx
  Idealize.SL.Sem Cert.RowMlp Cert.KernelRow
open Idealize.ShloMosaic.Pipeline (Dat Cfg Window)

variable (m : (ℓ : Loc nD τ sig) → Buf (Elt Ideal) ℓ)

/-- The zero offset of every load and of the store. -/
theorem hz : (![0, 0, 0] : Fin 3 → Nat) = fun _ => 0 := funext fun a => by fin_cases a <;> rfl

/-- The printed index maps, decided over the 32 points: every window's block index on the member axis is the output's; the
    rows of `x` and of the noise move with the output's rows; every other block index is zero; the output's stay in range. -/
theorem idx_facts : ∀ t : Fin cfg0.N,
    win0_0.index t (0 : Fin 3) = win0_8.index t (0 : Fin 3) ∧ win0_0.index t (1 : Fin 3) = win0_8.index t (1 : Fin 3) ∧ win0_0.index t (2 : Fin 3) = 0
    ∧ win0_1.index t (0 : Fin 3) = win0_8.index t (0 : Fin 3) ∧ win0_1.index t (1 : Fin 3) = win0_8.index t (1 : Fin 3) ∧ win0_1.index t (2 : Fin 3) = 0
    ∧ win0_2.index t (0 : Fin 3) = win0_8.index t (0 : Fin 3) ∧ win0_2.index t (1 : Fin 3) = 0 ∧ win0_2.index t (2 : Fin 3) = 0
    ∧ win0_3.index t (0 : Fin 3) = win0_8.index t (0 : Fin 3) ∧ win0_3.index t (1 : Fin 3) = 0 ∧ win0_3.index t (2 : Fin 3) = 0
    ∧ win0_4.index t (0 : Fin 3) = win0_8.index t (0 : Fin 3) ∧ win0_4.index t (1 : Fin 3) = 0 ∧ win0_4.index t (2 : Fin 3) = 0
    ∧ win0_5.index t (0 : Fin 3) = win0_8.index t (0 : Fin 3) ∧ win0_5.index t (1 : Fin 3) = 0 ∧ win0_5.index t (2 : Fin 3) = 0
    ∧ win0_6.index t (0 : Fin 3) = win0_8.index t (0 : Fin 3) ∧ win0_6.index t (1 : Fin 3) = 0 ∧ win0_6.index t (2 : Fin 3) = 0
    ∧ win0_7.index t (0 : Fin 3) = win0_8.index t (0 : Fin 3) ∧ win0_7.index t (1 : Fin 3) = 0 ∧ win0_7.index t (2 : Fin 3) = 0
    ∧ win0_8.index t (2 : Fin 3) = 0 ∧ win0_8.index t (0 : Fin 3) ≤ 7 ∧ win0_8.index t (1 : Fin 3) ≤ 3 :=
  (by decide +kernel : ∀ t : Fin grid0.N, _)

/-- What point `t` writes back is block `t` of the joined array of the arrays as the region finds them. -/
theorem flushed_eq (c : Dev nD) (t : Fin cfg0.N) :
    (dats m 0 c).flushed 8 t = ((cfg0.win 8).blk t).view.read (Elt Ideal)
      (joinedArray (V m c main_arg0) (V m c main_arg1) (V m c main_arg2) (V m c main_v0) (V m c main_arg4) (V m c main_v1)
        (V m c main_arg6) (V m c main_v2)) := by
  show (cfg0.win 8).cut (grid0.coords t) ((dats m 0 c).after 8 t) = _
  rw [after0_8]
  unfold out0_8
  rw [View.canon_unit_zero hz]
  simp only [View.ld_unit_zero (S := S1x1024x256) hz, View.ld_unit_zero (S := S1x1024x64) hz,
    View.ld_unit_zero (S := S1x256x1024) hz, View.ld_unit_zero (S := S1x1x1024) hz,
    View.ld_unit_zero (S := S1x1024x1024) hz, View.ld_unit_zero (S := S1x1x64) hz]
  obtain ⟨f00, f01, f02, f10, f11, f12, f20, f21, f22, f30, f31, f32, f40, f41, f42, f50, f51, f52, f60, f61, f62, f70, f71, f72,
    f82, b0, b1⟩ := idx_facts t
  funext y
  obtain ⟨u, p, cc, rfl⟩ : ∃ (u : Fin 1) (p : Fin 1024) (cc : Fin 128), y = ix3 u p cc := ⟨y 0, y 1, y 2, eq_ix3 y⟩
  have hu : u.val = 0 := by omega
  have hp := p.isLt
  show k0_pay1 (k0_pay2 (iblk m c 0 t) (iblk m c 2 t) (iblk m c 3 t) (iblk m c 4 t) (iblk m c 5 t) (iblk m c 6 t))
      (k0_pay3 (iblk m c 7 t)) (iblk m c 1 t) (ix3 u p cc)
    = joinedArray (V m c main_arg0) (V m c main_arg1) (V m c main_arg2) (V m c main_v0) (V m c main_arg4) (V m c main_v1)
        (V m c main_arg6) (V m c main_v2) (((cfg0.win 8).blk t).view.emb (ix3 u p cc))
  refine (block_entry (iblk m c 0 t) (iblk m c 1 t) (iblk m c 2 t) (iblk m c 3 t) (iblk m c 4 t) (iblk m c 5 t) (iblk m c 6 t)
    (iblk m c 7 t) (V m c main_arg0) (V m c main_arg1) (V m c main_arg2) (V m c main_v0) (V m c main_arg4) (V m c main_v1)
    (V m c main_arg6) (V m c main_v2) ⟨win0_8.index t (0 : Fin 3), by omega⟩
    ⟨win0_8.index t (1 : Fin 3) * 1024 + p.val, by omega⟩ u p cc ?_ ?_ ?_ ?_ ?_ ?_ ?_ ?_).trans ?_
  · intro k
    show V m c main_arg0 (((cfg0.win 0).blk t).view.emb (ix3 0 p k)) = _
    exact congrArg (V m c main_arg0) (funext fun a => Fin.ext (by
      match a with
      | ⟨0, _⟩ => show win0_0.index t (0 : Fin 3) * 1 + 1 * 0 = win0_8.index t (0 : Fin 3); omega
      | ⟨1, _⟩ => show win0_0.index t (1 : Fin 3) * 1024 + 1 * p.val = win0_8.index t (1 : Fin 3) * 1024 + p.val; omega
      | ⟨2, _⟩ => show win0_0.index t (2 : Fin 3) * 256 + 1 * k.val = k.val; omega))
  · intro j
    show V m c main_arg1 (((cfg0.win 1).blk t).view.emb (ix3 0 p j)) = _
    exact congrArg (V m c main_arg1) (funext fun a => Fin.ext (by
      match a with
      | ⟨0, _⟩ => show win0_1.index t (0 : Fin 3) * 1 + 1 * 0 = win0_8.index t (0 : Fin 3); omega
      | ⟨1, _⟩ => show win0_1.index t (1 : Fin 3) * 1024 + 1 * p.val = win0_8.index t (1 : Fin 3) * 1024 + p.val; omega
      | ⟨2, _⟩ => show win0_1.index t (2 : Fin 3) * 64 + 1 * j.val = j.val; omega))
  · intro k o
    show V m c main_arg2 (((cfg0.win 2).blk t).view.emb (ix3 0 k o)) = _
    exact congrArg (V m c main_arg2) (funext fun a => Fin.ext (by
      match a with
      | ⟨0, _⟩ => show win0_2.index t (0 : Fin 3) * 1 + 1 * 0 = win0_8.index t (0 : Fin 3); omega
      | ⟨1, _⟩ => show win0_2.index t (1 : Fin 3) * 256 + 1 * k.val = k.val; omega
      | ⟨2, _⟩ => show win0_2.index t (2 : Fin 3) * 1024 + 1 * o.val = o.val; omega))
  · intro o
    show V m c main_v0 (((cfg0.win 3).blk t).view.emb (ix3 0 0 o)) = _
    exact congrArg (V m c main_v0) (funext fun a => Fin.ext (by
      match a with
      | ⟨0, _⟩ => show win0_3.index t (0 : Fin 3) * 1 + 1 * 0 = win0_8.index t (0 : Fin 3); omega
      | ⟨1, _⟩ => show win0_3.index t (1 : Fin 3) * 1 + 1 * 0 = 0; omega
      | ⟨2, _⟩ => show win0_3.index t (2 : Fin 3) * 1024 + 1 * o.val = o.val; omega))
  · intro k o
    show V m c main_arg4 (((cfg0.win 4).blk t).view.emb (ix3 0 k o)) = _
    exact congrArg (V m c main_arg4) (funext fun a => Fin.ext (by
      match a with
      | ⟨0, _⟩ => show win0_4.index t (0 : Fin 3) * 1 + 1 * 0 = win0_8.index t (0 : Fin 3); omega
      | ⟨1, _⟩ => show win0_4.index t (1 : Fin 3) * 1024 + 1 * k.val = k.val; omega
      | ⟨2, _⟩ => show win0_4.index t (2 : Fin 3) * 1024 + 1 * o.val = o.val; omega))
  · intro o
    show V m c main_v1 (((cfg0.win 5).blk t).view.emb (ix3 0 0 o)) = _
    exact congrArg (V m c main_v1) (funext fun a => Fin.ext (by
      match a with
      | ⟨0, _⟩ => show win0_5.index t (0 : Fin 3) * 1 + 1 * 0 = win0_8.index t (0 : Fin 3); omega
      | ⟨1, _⟩ => show win0_5.index t (1 : Fin 3) * 1 + 1 * 0 = 0; omega
      | ⟨2, _⟩ => show win0_5.index t (2 : Fin 3) * 1024 + 1 * o.val = o.val; omega))
  · intro k j
    show V m c main_arg6 (((cfg0.win 6).blk t).view.emb (ix3 0 k j)) = _
    exact congrArg (V m c main_arg6) (funext fun a => Fin.ext (by
      match a with
      | ⟨0, _⟩ => show win0_6.index t (0 : Fin 3) * 1 + 1 * 0 = win0_8.index t (0 : Fin 3); omega
      | ⟨1, _⟩ => show win0_6.index t (1 : Fin 3) * 1024 + 1 * k.val = k.val; omega
      | ⟨2, _⟩ => show win0_6.index t (2 : Fin 3) * 64 + 1 * j.val = j.val; omega))
  · intro j
    show V m c main_v2 (((cfg0.win 7).blk t).view.emb (ix3 0 0 j)) = _
    exact congrArg (V m c main_v2) (funext fun a => Fin.ext (by
      match a with
      | ⟨0, _⟩ => show win0_7.index t (0 : Fin 3) * 1 + 1 * 0 = win0_8.index t (0 : Fin 3); omega
      | ⟨1, _⟩ => show win0_7.index t (1 : Fin 3) * 1 + 1 * 0 = 0; omega
      | ⟨2, _⟩ => show win0_7.index t (2 : Fin 3) * 64 + 1 * j.val = j.val; omega))
  · have e0 : (⟨win0_8.index t (0 : Fin 3), by omega⟩ : Fin 8) = ((cfg0.win 8).blk t).view.emb (ix3 u p cc) 0 :=
      Fin.ext (show win0_8.index t (0 : Fin 3) = win0_8.index t (0 : Fin 3) * 1 + 1 * u.val by omega)
    have e1 : (⟨win0_8.index t (1 : Fin 3) * 1024 + p.val, by omega⟩ : Fin 4096) = ((cfg0.win 8).blk t).view.emb (ix3 u p cc) 1 :=
      Fin.ext (show win0_8.index t (1 : Fin 3) * 1024 + p.val = win0_8.index t (1 : Fin 3) * 1024 + 1 * p.val by omega)
    have e2 : cc = ((cfg0.win 8).blk t).view.emb (ix3 u p cc) 2 :=
      Fin.ext (show cc.val = win0_8.index t (2 : Fin 3) * 128 + 1 * cc.val by omega)
    unfold joinedArray
    rw [← e0, ← e1, ← e2]

/-- An index of the output array is in point `t`'s block iff each coordinate is in the block's range on its axis. -/
theorem mem_blk (t : Fin cfg0.N) (i : S8x4096x128.Idx) :
    i ∈ ((cfg0.win 8).blk t).view.set ↔ ∀ a : Fin 3, win0_8.index t a * S1x1024x128.size a ≤ (i a).val
      ∧ (i a).val < win0_8.index t a * S1x1024x128.size a + S1x1024x128.size a := by
  show i ∈ ((View.whole main_v3).slice (win0_8.rect t)).set ↔ _
  rw [View.set_slice_whole, Rect.mem_set_unit]
  exact Iff.rfl

/-- Every (member, quarter) is some point's output block index. -/
theorem idx_onto : ∀ (q0 : Fin 8) (q1 : Fin 4), ∃ t : Fin cfg0.N, win0_8.index t = ![q0.val, q1.val, 0] :=
  (by decide +kernel : ∀ (q0 : Fin 8) (q1 : Fin 4), ∃ t : Fin grid0.N, win0_8.index t = ![q0.val, q1.val, 0])

/-- Every index of the output array is in some flushing point's block: row `r` of member `e` is in quarter `r / 1024`. -/
theorem cover (i : S8x4096x128.Idx) :
    ∃ t : Fin cfg0.N, (cfg0.win 8).flush t = true ∧ i ∈ ((cfg0.win 8).blk t).view.set := by
  have hi0 : (i 0).val < 8 := (i 0).isLt
  have hi1 : (i 1).val < 4096 := (i 1).isLt
  have hi2 : (i 2).val < 128 := (i 2).isLt
  obtain ⟨t, ht⟩ := idx_onto ⟨(i 0).val, hi0⟩ ⟨(i 1).val / 1024, by omega⟩
  have q0 : win0_8.index t (0 : Fin 3) = (i 0).val := congrFun ht 0
  have q1 : win0_8.index t (1 : Fin 3) = (i 1).val / 1024 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 128 ≤ (i 2).val ∧ (i 2).val < win0_8.index t (2 : Fin 3) * 128 + 128; omega

/-- The output array after the run is the joined array of the arrays the region found. -/
theorem final (c : Dev nD) :
    (dats m 0 c).arrAt 8 cfg0.N = joinedArray (V m c main_arg0) (V m c main_arg1) (V m c main_arg2) (V m c main_v0)
      (V m c main_arg4) (V m c main_v1) (V m c main_arg6) (V m c main_v2) :=
  (dats m 0 c).arrAt_eq_of_cover 8 _ (fun t _ => flushed_eq m c t) cover

end Cert.KernelArray

end
-- ==== Proof.LibSlabLayout.lean ====
/-
  Two layout operations on arrays of rank three, read at an index given by its coordinates.

  A matrix [a, n] re-laid with a unit middle axis as [a, 1, n] reads, at (e, 0, o), the matrix at (e, o): the row-major
  position is the same. A rank-three array cut along its LAST axis from `off` reads, at (e, r, j), the source at
  (e, r, off + j).
-/
import Idealize.ShloMosaic.Lib.Pipeline.Value
import Idealize.ShloMosaic.Lib.ValueIdx

namespace Cert.LibSlabLayout

open Idealize.ShloMosaic Idealize.ShloMosaic.ValueIdx

variable {α : Type}

/-- A matrix `[a, n]` re-laid as `[a, 1, n]` reads, at `(e, 0, o)`, the matrix at `(e, o)`. -/
theorem shapeCast_an_a1n_apply {a n : ℕ} (x : (⟨2, ![a, n]⟩ : Shape).Idx → α)
    (h : (⟨2, ![a, n]⟩ : Shape).ShapeCasts ⟨3, ![a, 1, n]⟩) (e : Fin a) (u : Fin 1) (o : Fin n) :
    shapeCast ⟨3, ![a, 1, n]⟩ x h (ix3 e u o) = x (ix2 e o) :=
  shapeCast_apply x h _ _ (by
    have hu : u.val = 0 := by omega
    rw [Shape.rowMajor_val_three, Shape.rowMajor_val_two]
    show e.val * n + o.val = (e.val * 1 + u.val) * n + o.val
    rw [hu, Nat.mul_one, Nat.add_zero])

/-- A rank-3 array cut along its last axis from `off` reads, at `(e, r, j)`, the source at `(e, r, k)` with `k = off + j`. -/
theorem slice3_axis2_apply {n0 n1 n2 w : ℕ} (off : ℕ) (X : (⟨3, ![n0, n1, n2]⟩ : Shape).Idx → α)
    (h : (⟨3, ![n0, n1, n2]⟩ : Shape).Slices ![0, 0, off] ⟨3, ![n0, n1, w]⟩)
    (e : Fin n0) (r : Fin n1) (j : Fin w) (k : Fin n2) (hk : k.val = off + j.val) :
    extractStridedSlice ⟨3, ![n0, n1, w]⟩ ![0, 0, off] X h (ix3 e r j) = X (ix3 e r k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibSlabLayout
-- ==== Proof.JoinedSplit.lean ====
/-
  The joined array split back into the two results.

  The kernel stores the two results side by side and the host cuts them apart again: columns 0 … 63 of the joined array
  are the first result and columns 64 … 127 the second. The kernel also receives each bias matrix [8, n] re-laid as
  one-row slabs [8, 1, n]; read at (e, 0, o) a slab is the matrix at (e, o), so the means over slabs are the means over
  the matrices.
-/
import proofs.«133780_j60902636257569_2_alg».proof.Proof.RowMlp
import proofs.«133780_j60902636257569_2_alg».proof.Proof.LibSlabLayout

noncomputable section

namespace Cert.RowMlp

open Idealize.ShloMosaic Idealize.ShloMosaic.ValueIdx Cert.LibSlabLayout

/-- A column inside the first 64 of a joined row is the squashed mean at that column. -/
theorem joined_left (mu nz : Fin 64 → EReal) (c : Fin 128) (j : Fin 64) (h : c.val = j.val) :
    joined mu nz c = squashedMean mu j := by
  have hj := j.isLt
  unfold joined
  rw [dif_pos (by omega)]
  exact congrArg (squashedMean mu) (Fin.ext h)

/-- A column past the first 64 of a joined row is the squashed sample at that column less 64. -/
theorem joined_right (mu nz : Fin 64 → EReal) (c : Fin 128) (j : Fin 64) (h : c.val = 64 + j.val) :
    joined mu nz c = squashedSample mu nz j := by
  unfold joined
  rw [dif_neg (by omega)]
  exact congrArg (squashedSample mu nz) (Fin.ext (by show c.val - 64 = j.val; omega))

variable (x : (⟨3, ![8, 4096, 256]⟩ : Shape).Idx → EReal) (nz : (⟨3, ![8, 4096, 64]⟩ : Shape).Idx → EReal)
  (w1 : (⟨3, ![8, 256, 1024]⟩ : Shape).Idx → EReal) (b1 : (⟨2, ![8, 1024]⟩ : Shape).Idx → EReal)
  (w2 : (⟨3, ![8, 1024, 1024]⟩ : Shape).Idx → EReal) (b2 : (⟨2, ![8, 1024]⟩ : Shape).Idx → EReal)
  (w3 : (⟨3, ![8, 1024, 64]⟩ : Shape).Idx → EReal) (b3 : (⟨2, ![8, 64]⟩ : Shape).Idx → EReal)
  (h1 : (⟨2, ![8, 1024]⟩ : Shape).ShapeCasts ⟨3, ![8, 1, 1024]⟩) (h2 : (⟨2, ![8, 1024]⟩ : Shape).ShapeCasts ⟨3, ![8, 1, 1024]⟩)
  (h3 : (⟨2, ![8, 64]⟩ : Shape).ShapeCasts ⟨3, ![8, 1, 64]⟩)

/-- The means over biases re-laid as one-row slabs are the means over the bias matrices. -/
theorem slabMeanAt_relaid (e : Fin 8) (r : Fin 4096) :
    slabMeanAt x w1 (shapeCast ⟨3, ![8, 1, 1024]⟩ b1 h1) w2 (shapeCast ⟨3, ![8, 1, 1024]⟩ b2 h2) w3
        (shapeCast ⟨3, ![8, 1, 64]⟩ b3 h3) e r
      = meanAt x w1 b1 w2 b2 w3 b3 e r := by
  unfold slabMeanAt meanAt
  simp only [shapeCast_an_a1n_apply]

/-- Columns 0 … 63 of the joined array are the first result. -/
theorem slice_first (hs : (⟨3, ![8, 4096, 128]⟩ : Shape).Slices ![0, 0, 0] ⟨3, ![8, 4096, 64]⟩) :
    extractStridedSlice ⟨3, ![8, 4096, 64]⟩ ![0, 0, 0]
        (joinedArray x nz w1 (shapeCast ⟨3, ![8, 1, 1024]⟩ b1 h1) w2 (shapeCast ⟨3, ![8, 1, 1024]⟩ b2 h2) w3
          (shapeCast ⟨3, ![8, 1, 64]⟩ b3 h3)) hs
      = first x w1 b1 w2 b2 w3 b3 := by
  funext i
  obtain ⟨e, r, j, rfl⟩ : ∃ (e : Fin 8) (r : Fin 4096) (j : Fin 64), i = ix3 e r j := ⟨i 0, i 1, i 2, eq_ix3 i⟩
  have hj := j.isLt
  rw [slice3_axis2_apply 0 _ hs e r j ⟨j.val, by omega⟩ (by show j.val = 0 + j.val; omega)]
  show joined (slabMeanAt x w1 _ w2 _ w3 _ e r) (fun j => nz (ix3 e r j)) ⟨j.val, _⟩ = squashedMean (meanAt x w1 b1 w2 b2 w3 b3 e r) j
  rw [joined_left _ _ _ j rfl, slabMeanAt_relaid]

/-- Columns 64 … 127 of the joined array are the second result. -/
theorem slice_second (hs : (⟨3, ![8, 4096, 128]⟩ : Shape).Slices ![0, 0, 64] ⟨3, ![8, 4096, 64]⟩) :
    extractStridedSlice ⟨3, ![8, 4096, 64]⟩ ![0, 0, 64]
        (joinedArray x nz w1 (shapeCast ⟨3, ![8, 1, 1024]⟩ b1 h1) w2 (shapeCast ⟨3, ![8, 1, 1024]⟩ b2 h2) w3
          (shapeCast ⟨3, ![8, 1, 64]⟩ b3 h3)) hs
      = second x nz w1 b1 w2 b2 w3 b3 := by
  funext i
  obtain ⟨e, r, j, rfl⟩ : ∃ (e : Fin 8) (r : Fin 4096) (j : Fin 64), i = ix3 e r j := ⟨i 0, i 1, i 2, eq_ix3 i⟩
  have hj := j.isLt
  rw [slice3_axis2_apply 64 _ hs e r j ⟨64 + j.val, by omega⟩ rfl]
  show joined (slabMeanAt x w1 _ w2 _ w3 _ e r) (fun j => nz (ix3 e r j)) ⟨64 + j.val, _⟩
    = squashedSample (meanAt x w1 b1 w2 b2 w3 b3 e r) (fun j => nz (ix3 e r j)) j
  rw [joined_right _ _ _ j rfl, slabMeanAt_relaid]

end Cert.RowMlp

end
-- ==== Proof.KernelResults.lean ====
/-
  The kernel's two results.

  Around the region the host re-lays the three bias matrices as one-row slabs before it, and cuts the [8, 4096, 128] output
  into its two halves after it. The region finds every other argument as launched, so the output array after the run is
  the joined array of the launch contents (the biases re-laid), and the two halves are the two results of the row
  function, member by member and row by row.
-/
import proofs.«133780_j60902636257569_2_alg».proof.Proof.KernelArray
import proofs.«133780_j60902636257569_2_alg».proof.Proof.JoinedSplit
import Idealize.ShloMosaic.Lib.StableHlo.Run

set_option maxRecDepth 16384

noncomputable section

namespace Cert.KernelResults

open Cert.KernelIdeal Cert.KernelIdeal.Gen Idealize.ShloMosaic Idealize.ShloMosaic.TcCoe Idealize.ShloMosaic.ValueIdx
  Idealize.SL.Sem Cert.RowMlp Cert.KernelArray Idealize.ShloMosaic.StableHlo
open Idealize.ShloMosaic.Pipeline (Dat Cfg Window)

variable (m : (ℓ : Loc nD τ sig) → Buf (Elt Ideal) ℓ) (ρ : Dev nD → PrngReg)

/-- The region finds the first bias re-laid as one-row slabs. -/
theorem region_b1 (c : Dev nD) :
    (V m c main_v0 : S8x1x1024.Idx → EReal)
      = shapeCast S8x1x1024 (m ((c : Thread nD τ).loc main_arg3)) shapeCasts_S8x1024_S8x1x1024 := by
  show StableHlo.after hostOps0 (fun b => m (c, b)) (Proc.devRef .tc main_v0) = _
  after_results
  rfl

/-- The region finds the second bias re-laid as one-row slabs. -/
theorem region_b2 (c : Dev nD) :
    (V m c main_v1 : S8x1x1024.Idx → EReal)
      = shapeCast S8x1x1024 (m ((c : Thread nD τ).loc main_arg5)) shapeCasts_S8x1024_S8x1x1024 := by
  show StableHlo.after hostOps0 (fun b => m (c, b)) (Proc.devRef .tc main_v1) = _
  after_results
  rfl

/-- The region finds the third bias re-laid as one-row slabs. -/
theorem region_b3 (c : Dev nD) :
    (V m c main_v2 : S8x1x64.Idx → EReal)
      = shapeCast S8x1x64 (m ((c : Thread nD τ).loc main_arg7)) shapeCasts_S8x64_S8x1x64 := by
  show StableHlo.after hostOps0 (fun b => m (c, b)) (Proc.devRef .tc main_v2) = _
  after_results
  rfl

/-- The output array after the run, over the launch contents. -/
theorem output (c : Dev nD) :
    (dats m 0 c).arrAt 8 cfg0.N
      = joinedArray (m ((c : Thread nD τ).loc main_arg0)) (m ((c : Thread nD τ).loc main_arg1))
          (m ((c : Thread nD τ).loc main_arg2))
          (shapeCast S8x1x1024 (m ((c : Thread nD τ).loc main_arg3)) shapeCasts_S8x1024_S8x1x1024)
          (m ((c : Thread nD τ).loc main_arg4))
          (shapeCast S8x1x1024 (m ((c : Thread nD τ).loc main_arg5)) shapeCasts_S8x1024_S8x1x1024)
          (m ((c : Thread nD τ).loc main_arg6))
          (shapeCast S8x1x64 (m ((c : Thread nD τ).loc main_arg7)) shapeCasts_S8x64_S8x1x64) := by
  rw [final, V_main_arg0, V_main_arg1, V_main_arg2, V_main_arg4, V_main_arg6, region_b1, region_b2, region_b3]

/-- The first result buffer after the host's cut: the first result of the row function. -/
theorem result0 (c : Dev nD) :
    Pipeline.afterTail₀ cfgs (dats m) 0 (V0 m) [hostOps1] c main_v4
      = first (m ((c : Thread nD τ).loc main_arg0)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) := by
  unfold Pipeline.afterTail₀
  show StableHlo.after hostOps1 _ (Proc.devRef .tc main_v4) = _
  after_results
  refine (congrArg (fun A => extractStridedSlice S8x4096x64 ![0, 0, 0] A slices_S8x4096x128_S8x4096x64_0_0_0)
    ((Pipeline.withArrays_arr spec0 launch0.win.arr_inj c (V0 m c) (fun w => (dats m 0 c).arrAt w cfg0.N) 8).trans (output m c))).trans ?_
  exact slice_first _ _ _ _ _ _ _ _ _ _ _ _

/-- The second result buffer after the host's cut: the second result of the row function. -/
theorem result1 (c : Dev nD) :
    Pipeline.afterTail₀ cfgs (dats m) 0 (V0 m) [hostOps1] c main_v5
      = second (m ((c : Thread nD τ).loc main_arg0)) (m ((c : Thread nD τ).loc main_arg1))
          (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) := by
  unfold Pipeline.afterTail₀
  show StableHlo.after hostOps1 _ (Proc.devRef .tc main_v5) = _
  after_results
  refine (congrArg (fun A => extractStridedSlice S8x4096x64 ![0, 0, 64] A slices_S8x4096x128_S8x4096x64_0_0_64)
    ((Pipeline.withArrays_arr spec0 launch0.win.arr_inj c (V0 m c) (fun w => (dats m 0 c).arrAt w cfg0.N) 8).trans (output m c))).trans ?_
  exact slice_second _ _ _ _ _ _ _ _ _ _ _ _

/-- Every weakly fair execution of the idealized kernel terminates with the two result buffers at the two results of the
    row function of the launch contents, and the eight arguments unchanged. -/
theorem run : θ_run defs (onTc (τ := τ) (main (F := Ideal))) ⟨m, fun _ => 0, ρ⟩ (fun r => ∀ c : Dev nD,
      r.2.mem ((c.tc : Thread nD τ).loc main_v4)
        = first (m ((c.tc : Thread nD τ).loc main_arg0)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7))
      ∧ r.2.mem ((c.tc : Thread nD τ).loc main_v5)
        = second (m ((c.tc : Thread nD τ).loc main_arg0)) (m ((c.tc : Thread nD τ).loc main_arg1))
            (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v4 (Pipeline.mem_restRefs_of main_v4 (by decide) (by decide))).trans (result0 m c),
      ((h c).2 main_v5 (Pipeline.mem_restRefs_of main_v5 (by decide) (by decide))).trans (result1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c)⟩)
    (run_main m ρ)

end Cert.KernelResults

end
-- ==== Proof.lean ====
/-
  An ensemble of eight three-layer networks, evaluated on 4096 rows each, against the same networks written with batched
  products.

  For member e and row r both programs compute the 64 means

      mu = (max (max (x·W1 + b1) 0 · W2 + b2) 0) · W3 + b3        (x the row's 256 observations, the weights member e's),

  divide them by the row's scale max (mean |mu|) 1, and return tanh of the scaled means and tanh of the scaled means plus a
  tenth of the row's noise (each times 1). One program does this on the host with three batched products; the other does
  it in a kernel whose grid has a point per (member, 1024 rows), with plain products into zero accumulators on operands
  narrowed to a shorter float format first, stores the two results side by side as one 128-wide block, and lets the host
  cut the [8, 4096, 128] array apart afterwards.

  At the ideal values a change of float format is the identity, a product into a zero accumulator is the sum over the
  contracted coordinate, and the lane sum of the kernel is the host's sum from zero; so both are ONE function of a row and
  of its member's weights (Proof/RowMlp.lean). The only difference of spelling is the mean of the absolute values: the
  kernel multiplies the sum by the float 2⁻⁶, the host divides it by the float 64; both words are exact and on the extended
  reals a quotient by a nonzero real is the product with its inverse at every argument, so no finiteness is needed and
  the precondition is never opened.

  The reference is that function by reading its operations one at a time (Proof/RefRow.lean, over the generated
  read-at-an-index lemmas). The kernel's body is that function on its blocks (Proof/KernelRow.lean); a point's blocks are the
  arrays' rows b·1024 … b·1024 + 1023 of member e and member e's slabs, the 32 points' output blocks tile the output array
  (Proof/KernelArray.lean), and the host's two cuts of the joined array are the two results (Proof/JoinedSplit.lean,
  Proof/KernelResults.lean). The three frames are the generated frame runs. The ideal pass rewrote no operation, so the
  idealized kernel is the kernel's own text read at the ideal values and there is nothing to preserve.
-/
import proofs.«133780_j60902636257569_2_alg».proof.Defs
import proofs.«133780_j60902636257569_2_alg».proof.Proof.Gen.Kernel
import proofs.«133780_j60902636257569_2_alg».proof.Proof.Gen.Kernel.Skeleton
import proofs.«133780_j60902636257569_2_alg».proof.Proof.Gen.Kernel.Launch
import proofs.«133780_j60902636257569_2_alg».proof.Proof.Gen.Kernel.Points
import proofs.«133780_j60902636257569_2_alg».proof.Proof.Gen.Kernel.Frame
import proofs.«133780_j60902636257569_2_alg».proof.Proof.Gen.KernelIdeal
import proofs.«133780_j60902636257569_2_alg».proof.Proof.Gen.KernelIdeal.Skeleton
import proofs.«133780_j60902636257569_2_alg».proof.Proof.Gen.KernelIdeal.Launch
import proofs.«133780_j60902636257569_2_alg».proof.Proof.Gen.KernelIdeal.Points
import proofs.«133780_j60902636257569_2_alg».proof.Proof.Gen.KernelIdeal.Frame
import proofs.«133780_j60902636257569_2_alg».proof.Proof.Gen.ReferenceIdeal
import proofs.«133780_j60902636257569_2_alg».proof.Proof.Gen.Pre_finite_inputs
import proofs.«133780_j60902636257569_2_alg».proof.Proof.Gen.ReferenceIdeal.Run
import proofs.«133780_j60902636257569_2_alg».proof.Proof.Gen.ReferenceIdeal.Read
import proofs.«133780_j60902636257569_2_alg».proof.Proof.RefRow
import proofs.«133780_j60902636257569_2_alg».proof.Proof.KernelResults
import Idealize.ShloMosaic.Adequacy
import Idealize.ShloMosaic.Init

noncomputable section

namespace Cert.Proof

open Idealize.ShloMosaic Idealize.SL.Sem Cert.RowMlp

/-- The word-level kernel runs and leaves its arguments as launched: the generated frame run. -/
theorem frame_kernel : Cert.frame_Kernel := fun m ρ _ => Cert.Kernel.Gen.frame m ρ

/-- So does the kernel read at the ideal values. -/
theorem frame_ideal : Cert.frame_KernelIdeal := fun m ρ _ => Cert.KernelIdeal.Gen.frame m ρ

/-- The reference runs and leaves its arguments as launched: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the eight arguments both programs end with the two results of the row function of those
    arguments: the kernel by its run read through its blocks, the reference by its run read one operation at a time. -/
theorem algebraic : Cert.algebraic_KernelIdeal_ReferenceIdeal := by
  intro m ρ m' ρ' _ hagree
  refine ⟨_, _, Cert.KernelResults.run m ρ, ?_⟩
  refine (θ_run Cert.ReferenceIdeal.defs _ _).mono (fun r h c => ?_) (Cert.ReferenceIdeal.Value.run (F := Ideal) m' ρ')
  obtain ⟨a0, a1, a2, a3, a4, a5, a6, a7⟩ := hagree c
  refine ⟨(h c).1.trans ?_, (h c).2.1.trans ?_, (h c).2.2⟩
  · rw [Cert.ReferenceIdeal.Read.val_main_v28_eq, Cert.RefRow.first_eq, a0, a2, a3, a4, a5, a6, a7]
  · rw [Cert.ReferenceIdeal.Read.val_main_v31_eq, Cert.RefRow.second_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
